-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1000x512 : Shape := ⟨2, ![1000, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_

variable [Facts]

def fn {F : FTy → Type} [FloatOps F] (main_arg0 : FVec F S16384x512 .f32) (main_arg1 : FVec F S1000x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1000x512 .f32 := Host.absf main_arg1
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  main_v8
-- ==== Kernel.lean ====
abbrev S16384x512 : Shape := ⟨2, ![16384, 512]⟩
abbrev S1000x512 : Shape := ⟨2, ![1000, 512]⟩
abbrev S_ : Shape := ⟨0, ![]⟩
abbrev S1000 : Shape := ⟨1, ![1000]⟩
abbrev S1000x1 : Shape := ⟨2, ![1000, 1]⟩
abbrev S1x1000 : Shape := ⟨2, ![1, 1000]⟩
abbrev S16384x1000 : Shape := ⟨2, ![16384, 1000]⟩
abbrev S2048x512 : Shape := ⟨2, ![2048, 512]⟩
abbrev S2048x1000 : Shape := ⟨2, ![2048, 1000]⟩
abbrev S2048 : Shape := ⟨1, ![2048]⟩
abbrev S2048x1 : Shape := ⟨2, ![2048, 1]⟩

abbrev nBuf : Space → Nat
  | .hbm => 8
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S1000x512, .f32⟩
  | .hbm, ⟨2, _⟩ => ⟨S1000x512, .f32⟩
  | .hbm, ⟨3, _⟩ => ⟨S_, .f32⟩
  | .hbm, ⟨4, _⟩ => ⟨S1000, .f32⟩
  | .hbm, ⟨5, _⟩ => ⟨S1000x1, .f32⟩
  | .hbm, ⟨6, _⟩ => ⟨S1x1000, .f32⟩
  | .hbm, ⟨7, _⟩ => ⟨S16384x1000, .f32⟩
  | .local _ .vmem, ⟨0, _⟩ => ⟨S2048x512, .f32⟩
  | .local _ .vmem, ⟨1, _⟩ => ⟨S2048x512, .f32⟩
  | .local _ .vmem, ⟨2, _⟩ => ⟨S1000x512, .f32⟩
  | .local _ .vmem, ⟨3, _⟩ => ⟨S1x1000, .f32⟩
  | .local _ .vmem, ⟨4, _⟩ => ⟨S2048x1000, .f32⟩
  | .local _ .vmem, ⟨5, _⟩ => ⟨S2048x1000, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S1000x512_S1000_d1 : S1000x512.ReducesTo [1] S1000
  h_S_ : 0 < S_.numel
  bcast_S1000_S1000x1_0 : S1000.BroadcastsInDim S1000x1 (![0] : Fin 1 → Fin S1000x1.rank)
  transposes_S1000x1_S1x1000_1_0 : S1000x1.Transposes [1, 0] S1x1000
  inb_S2048x512_S2048x512_0_0 : ∀ a, (![0, 0] : Fin 2 → Nat) a + S2048x512.size a ≤ S2048x512.size a
  h_S2048x512 : 0 < S2048x512.numel
  inb_S1000x512_S1000x512_0_0 : ∀ a, (![0, 0] : Fin 2 → Nat) a + S1000x512.size a ≤ S1000x512.size a
  h_S1000x512 : 0 < S1000x512.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  reduces_S2048x512_S2048 : S2048x512.Reduces [1] S2048
  shapeCasts_S2048_S2048x1 : S2048.ShapeCasts S2048x1
  bitsLt_bf16_f32 : FTy.bits .bf16 < FTy.bits .f32
  broadcasts_S2048x1_S2048x1000 : S2048x1.Broadcasts S2048x1000
  broadcasts_S1x1000_S2048x1000 : S1x1000.Broadcasts S2048x1000
  inb_S2048x1000_S2048x1000_0_0 : ∀ a, (![0, 0] : Fin 2 → Nat) a + S2048x1000.size a ≤ S2048x1000.size a
  h_S2048x1000 : 0 < S2048x1000.numel
  dot_S2048x512_S1000x512_S2048x1000_1_1_0_0_n_n_wf : DotDims.WF S2048x512 S1000x512 S2048x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S1000x512.size a
  hwx0_1 : ∀ i : grid0.Coords, EltTy.bits .f32 = 32 ∨ (Rect.block (s := S1000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1000.size a ≤ S16384x1000.size a
  hwx0_3 : ∀ i : grid0.Coords, EltTy.bits .f32 = 32 ∨ (Rect.block (s := S16384x1000) S2048x1000.size (cc0_transform_3 i) (hinb0_3 i)).WholeWords (EltTy.packing .f32)

variable [Facts₀]

def dot_S2048x512_S1000x512_S2048x1000_1_1_0_0_n_n : DotDims S2048x512 S1000x512 S2048x1000 where
  lhsContracting := [1]
  rhsContracting := [1]
  lhsNonContracting := [0]
  rhsNonContracting := [0]
  lhsBatch := []
  rhsBatch := []
  wf := dot_S2048x512_S1000x512_S2048x1000_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S1000x512 : Shape := ⟨2, ![1000, 512]⟩
abbrev S_ : Shape := ⟨0, ![]⟩
abbrev S16384 : Shape := ⟨1, ![16384]⟩
abbrev S16384x1 : Shape := ⟨2, ![16384, 1]⟩
abbrev S1000 : Shape := ⟨1, ![1000]⟩
abbrev S16384x1000 : Shape := ⟨2, ![16384, 1000]⟩
abbrev S1x1000 : Shape := ⟨2, ![1, 1000]⟩

abbrev nBuf : Space → Nat
  | .hbm => 18
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1000x512, .f32⟩
  | .hbm, ⟨2, _⟩ => ⟨S16384x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1000x512, .f32⟩
  | .hbm, ⟨7, _⟩ => ⟨S_, .f32⟩
  | .hbm, ⟨8, _⟩ => ⟨S1000, .f32⟩
  | .hbm, ⟨9, _⟩ => ⟨S16384x1000, .f32⟩
  | .hbm, ⟨10, _⟩ => ⟨S1x1000, .f32⟩
  | .hbm, ⟨11, _⟩ => ⟨S16384x1000, .f32⟩
  | .hbm, ⟨12, _⟩ => ⟨S16384x1000, .f32⟩
  | .hbm, ⟨13, _⟩ => ⟨S16384x1000, .f32⟩
  | .hbm, ⟨14, _⟩ => ⟨S_, .f32⟩
  | .hbm, ⟨15, _⟩ => ⟨S16384x1000, .f32⟩
  | .hbm, ⟨16, _⟩ => ⟨S16384x1000, .f32⟩
  | .hbm, ⟨17, _⟩ => ⟨S16384x1000, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S1000x512_S1000_d1 : S1000x512.ReducesTo [1] S1000
  bcast_S1000_S1x1000_1 : S1000.BroadcastsInDim S1x1000 (![1] : Fin 1 → Fin S1x1000.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  bcast_S_S16384x1000 : S_.BroadcastsInDim S16384x1000 (![] : Fin 0 → Fin S16384x1000.rank)
  dot_S16384x512_S1000x512_S16384x1000_1_1_0_0_n_n_wf : DotDims.WF S16384x512 S1000x512 S16384x1000 [1] [1] [0] [0] [] []

variable [Facts₀]

def dot_S16384x512_S1000x512_S16384x1000_1_1_0_0_n_n : DotDims S16384x512 S1000x512 S16384x1000 where
  lhsContracting := [1]
  rhsContracting := [1]
  lhsNonContracting := [0]
  rhsNonContracting := [0]
  lhsBatch := []
  rhsBatch := []
  wf := dot_S16384x512_S1000x512_S16384x1000_1_1_0_0_n_n_wf

class Facts : Prop extends Facts₀ where

variable [Facts]
-- ==== Proof.DistSpec.lean ====
/-
  THE SPECIFICATION. The matrix of squared Euclidean distances between the 16384 rows of `x` and the 1000 rows of
  `p` (both with 512 columns), in its expanded form over the extended reals:

      dist b c = (∑ k, x b k * x b k  +  ∑ k, p c k * p c k)  -  two * ∑ k, x b k * p c k,

  where `two` is whatever extended real the f32 word `0x40000000` denotes (the same word occurs on both sides of the
  comparison, so it is never evaluated). Nothing here mentions a program: both the kernel's result and the
  reference's are shown, in their own modules, to be this one function of the two argument arrays.
-/
import Idealize.ShloMosaic.PureOps.Ideal
import Idealize.ShloMosaic.Lib.ValueIdx

noncomputable section

open scoped BigOperators

namespace Cert.SqDist

open Idealize.ShloMosaic Idealize.ShloMosaic.ValueIdx

/-- The squared norm of row `r` of a matrix with 512 columns: the sum of the squares of the row's entries. -/
def rowSq {n : Nat} (a : FVec Ideal ⟨2, ![n, 512]⟩ .f32) (r : Fin n) : EReal :=
  ∑ k : Fin 512, a (ix2 r k) * a (ix2 r k)

/-- The inner product of row `r` of one matrix with row `c` of another, both with 512 columns. -/
def rowDot {n n' : Nat} (a : FVec Ideal ⟨2, ![n, 512]⟩ .f32) (b : FVec Ideal ⟨2, ![n', 512]⟩ .f32) (r : Fin n) (c : Fin n') : EReal :=
  ∑ k : Fin 512, a (ix2 r k) * b (ix2 c k)

/-- The word the factor of the cross term is written with (the f32 pattern of 2.0), read as an extended real. -/
abbrev two : EReal := Ideal.ofBits .f32 0x40000000#32

/-- Entry `(b, c)` of the distance matrix: the two squared norms added, minus twice the inner product. -/
def entry (x : FVec Ideal ⟨2, ![16384, 512]⟩ .f32) (p : FVec Ideal ⟨2, ![1000, 512]⟩ .f32) (b : Fin 16384) (c : Fin 1000) : EReal :=
  (rowSq x b + rowSq p c) - two * rowDot x p b c

/-- The whole distance matrix, as one function of the two argument arrays, index by index. -/
def sqDist (x : FVec Ideal ⟨2, ![16384, 512]⟩ .f32) (p : FVec Ideal ⟨2, ![1000, 512]⟩ .f32) :
    FVec Ideal ⟨2, ![16384, 1000]⟩ .f32 :=
  fun i => entry x p ⟨(i 0).val, idx2_lt0 i⟩ ⟨(i 1).val, idx2_lt1 i⟩

/-- At an index given by its coordinates the matrix is the entry. -/
theorem sqDist_ix2 (x : FVec Ideal ⟨2, ![16384, 512]⟩ .f32) (p : FVec Ideal ⟨2, ![1000, 512]⟩ .f32) (b : Fin 16384) (c : Fin 1000) :
    sqDist x p (ix2 b c) = entry x p b c := rfl

end Cert.SqDist

end
-- ==== Proof.RefIsDist.lean ====
/-
  THE REFERENCE COMPUTES THE SPECIFICATION. The reference program squares and sums each argument along its rows
  (from the initial value zero), spreads the two vectors of squared norms over the result's rows and columns, adds
  them, and subtracts twice the product of `x` with the transpose of `p`. Read one operation at a time at an index
  `(b, c)`, every layout operation lands on row `b` of `x` or row `c` of `p`, and what is left is the entry of the
  distance matrix; the initial value zero of the two sums disappears.
-/
import proofs.«103916_j19748259627382_2_alg».proof.Proof.Gen.ReferenceIdeal.Read
import proofs.«103916_j19748259627382_2_alg».proof.Proof.DistSpec

noncomputable section

open scoped BigOperators

namespace Cert.ReferenceIdeal.RefValue

open Cert.ReferenceIdeal Cert.ReferenceIdeal.Read Idealize.ShloMosaic Idealize.ShloMosaic.ValueIdx Cert.SqDist

/-- Through the two broadcasts of the column of `x`'s squared norms, entry `(b, c)` sums over row `b` of `x`. -/
theorem idx_xsq (b : Fin 16384) (c : Fin 1000) (k : Fin 512) :
    idx_main_v1 (idx_main_v2 (idx_main_v7 (ix2 b c))) k = ix2 b k :=
  funext fun a => Fin.ext (by match a with | ⟨0, _⟩ => rfl | ⟨1, _⟩ => rfl)

/-- Through the two broadcasts of the row of `p`'s squared norms, entry `(b, c)` sums over row `c` of `p`. -/
theorem idx_psq (b : Fin 16384) (c : Fin 1000) (k : Fin 512) :
    idx_main_v4 (idx_main_v6 (idx_main_v8 (ix2 b c))) k = ix2 c k :=
  funext fun a => Fin.ext (by match a with | ⟨0, _⟩ => rfl | ⟨1, _⟩ => rfl)

/-- The product's left factor at `(b, c)` runs over row `b` of `x` … -/
theorem idx_lhs (b : Fin 16384) (c : Fin 1000) (k : Fin 512) : lidx_main_v5 (ix2 b c) k = ix2 b k :=
  funext fun a => Fin.ext (by match a with | ⟨0, _⟩ => rfl | ⟨1, _⟩ => rfl)

/-- … and its right factor over row `c` of `p`. -/
theorem idx_rhs (b : Fin 16384) (c : Fin 1000) (k : Fin 512) : ridx_main_v5 (ix2 b c) k = ix2 c k :=
  funext fun a => Fin.ext (by match a with | ⟨0, _⟩ => rfl | ⟨1, _⟩ => rfl)

/-- The reference's result, as a function of its two arguments, is the distance matrix. -/
theorem ref_eq (x0 : FVec Ideal S16384x512 .f32) (x1 : FVec Ideal S1000x512 .f32) :
    val_main_v12 (F := Ideal) x0 x1 = sqDist x0 x1 := by
  funext i
  obtain ⟨b, c, rfl⟩ : ∃ (b : Fin 16384) (c : Fin 1000), i = ix2 b c := ⟨i 0, i 1, eq_ix2 i⟩
  rw [sqDist_ix2, val_main_v12_apply, val_main_v9_apply, val_main_v7_apply, val_main_v2_apply, val_main_v1_apply,
    val_main_v8_apply, val_main_v6_apply, val_main_v4_apply, val_main_v11_apply, val_main_v10_apply, val_main_v5_apply]
  simp only [val_main_v0_apply, val_main_v3_apply, val_main_cst_apply, val_main_cst_0_apply, val_main_cst_1_apply,
    idx_xsq, idx_psq, idx_lhs, idx_rhs, Ideal.mulf_def, Ideal.addf_def, Ideal.subf_def, Ideal.ofBits_def,
    Ideal.ofBits_zero_f32, zero_add]
  rfl

end Cert.ReferenceIdeal.RefValue

end
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.KernelPayload.lean ====
/-
  THE KERNEL BODY'S ARITHMETIC AT ONE ENTRY. At each grid point the body holds a block of 2048 rows of `x`, the whole
  of `p`, and a row vector `s` of 1000 numbers (the squared norms of `p`'s rows, computed before the launch). It
  squares the block and sums it along each row, keeps that as a column, multiplies the block with the transpose of
  `p` on the matrix unit into a zero accumulator (the narrowing of both factors to bf16 changes nothing over the
  extended reals), spreads the column and the row vector over the 2048 × 1000 tile, and stores
  `(column + row) - two * product`. Read at `(r, c)` that is

      (∑ k, x r k * x r k  +  s c)  -  two * ∑ k, x r k * p c k.
-/
import proofs.«103916_j19748259627382_2_alg».proof.Proof.Gen.KernelIdeal.Skeleton
import proofs.«103916_j19748259627382_2_alg».proof.Proof.LibColumnLayout
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx Idealize.ShloMosaic.ColumnLayout

/-- The sum along each row of a 2048 × 512 tile, read at row `r`: the sum over the row's 512 entries. -/
theorem rowSum_apply (v : FVec Ideal S2048x512 .f32) (hacc : (0x00000000#32 : BitVec 32) = 0x00000000#32) (r : Fin 2048) :
    multiReduction (F := Ideal) .add [1] S2048 v 0x00000000#32 reduces_S2048x512_S2048 (.inl rfl) hacc (ix1 r)
      = ∑ k : Fin 512, v (ix2 r k) := by
  refine (Ideal.multiReduction_add_single v 0x00000000#32 reduces_S2048x512_S2048 (.inl rfl) hacc (ix1 r)).trans ?_
  refine Finset.sum_congr rfl fun k _ => congrArg v ?_
  funext a
  exact Fin.ext (by match a with | ⟨0, _⟩ => rfl | ⟨1, _⟩ => rfl)

/-- The product's dimension numbers, axis by axis: at output index `i` and contraction index `q` the left factor is
    read at `(i 0, q)` and the right factor at `(i 1, q)` — each contracts its second axis and keeps its first. -/
theorem lhs_row (i : S2048x1000.Idx) (q : dot_S2048x512_S1000x512_S2048x1000_1_1_0_0_n_n.contr.Idx) :
    (dot_S2048x512_S1000x512_S2048x1000_1_1_0_0_n_n.lhsIdx i q 0).val = (i 0).val := by
  unfold DotDims.lhsIdx
  rw [dif_neg (show ¬(0 : Fin S2048x512.rank) ∈ dot_S2048x512_S1000x512_S2048x1000_1_1_0_0_n_n.lhsBatch by decide),
    dif_pos (show (0 : Fin S2048x512.rank) ∈ dot_S2048x512_S1000x512_S2048x1000_1_1_0_0_n_n.lhsNonContracting by decide)]
  rfl
theorem lhs_col (i : S2048x1000.Idx) (q : dot_S2048x512_S1000x512_S2048x1000_1_1_0_0_n_n.contr.Idx) :
    (dot_S2048x512_S1000x512_S2048x1000_1_1_0_0_n_n.lhsIdx i q 1).val = (q ⟨0, by decide⟩).val :=
  dot_S2048x512_S1000x512_S2048x1000_1_1_0_0_n_n.lhsIdx_val_of_single rfl i q
theorem rhs_row (i : S2048x1000.Idx) (q : dot_S2048x512_S1000x512_S2048x1000_1_1_0_0_n_n.contr.Idx) :
    (dot_S2048x512_S1000x512_S2048x1000_1_1_0_0_n_n.rhsIdx i q 0).val = (i 1).val := by
  unfold DotDims.rhsIdx
  rw [dif_neg (show ¬(0 : Fin S1000x512.rank) ∈ dot_S2048x512_S1000x512_S2048x1000_1_1_0_0_n_n.rhsBatch by decide),
    dif_pos (show (0 : Fin S1000x512.rank) ∈ dot_S2048x512_S1000x512_S2048x1000_1_1_0_0_n_n.rhsNonContracting by decide)]
  rfl
theorem rhs_col (i : S2048x1000.Idx) (q : dot_S2048x512_S1000x512_S2048x1000_1_1_0_0_n_n.contr.Idx) :
    (dot_S2048x512_S1000x512_S2048x1000_1_1_0_0_n_n.rhsIdx i q 1).val = (q ⟨0, by decide⟩).val :=
  dot_S2048x512_S1000x512_S2048x1000_1_1_0_0_n_n.rhsIdx_val_of_single rfl i q

/-- The tile's product with the transpose of `p` into the zero accumulator, read at `(r, c)`: the inner product of
    row `r` of the tile with row `c` of `p`. Both factors contract their second axis. -/
theorem product_apply (a : FVec Ideal S2048x512 .bf16) (b : FVec Ideal S1000x512 .bf16) (r : Fin 2048) (c : Fin 1000) :
    matmul (F := Ideal) dot_S2048x512_S1000x512_S2048x1000_1_1_0_0_n_n none a b (constant S2048x1000 .f32 0x00000000#32) (ix2 r c)
      = ∑ k : Fin 512, a (ix2 r k) * b (ix2 c k) := by
  simp only [matmul]
  rw [Ideal.matmul_constant_zero_apply,
    ← Equiv.sum_comp (ValueIdx.contrEquiv1 dot_S2048x512_S1000x512_S2048x1000_1_1_0_0_n_n 512 rfl rfl).symm]
  refine Finset.sum_congr rfl fun k _ => ?_
  have hk := ValueIdx.contrEquiv1_symm_val dot_S2048x512_S1000x512_S2048x1000_1_1_0_0_n_n 512 rfl rfl k
  have el : dot_S2048x512_S1000x512_S2048x1000_1_1_0_0_n_n.lhsIdx (ix2 r c)
      ((ValueIdx.contrEquiv1 dot_S2048x512_S1000x512_S2048x1000_1_1_0_0_n_n 512 rfl rfl).symm k) = ix2 r k :=
    funext fun ax => Fin.ext (by
      match ax with
      | ⟨0, _⟩ => exact lhs_row _ _
      | ⟨1, _⟩ => exact (lhs_col _ _).trans hk)
  have er : dot_S2048x512_S1000x512_S2048x1000_1_1_0_0_n_n.rhsIdx (ix2 r c)
      ((ValueIdx.contrEquiv1 dot_S2048x512_S1000x512_S2048x1000_1_1_0_0_n_n 512 rfl rfl).symm k) = ix2 c k :=
    funext fun ax => Fin.ext (by
      match ax with
      | ⟨0, _⟩ => exact rhs_row _ _
      | ⟨1, _⟩ => exact (rhs_col _ _).trans hk)
  rw [el, er]

/-- THE STORED TILE AT `(r, c)`: the row's sum of squares plus the row vector's entry `c`, minus `two` times the inner
    product of row `r` of the tile with row `c` of `p`. -/
theorem pay_apply (x0 : Vec Ideal S2048x512 .f32) (x1 : Vec Ideal S1000x512 .f32) (x2 : Vec Ideal S1x1000 .f32)
    (r : Fin 2048) (c : Fin 1000) :
    k0_pay1 (F := Ideal) x0 x1 x2 (ix2 r c)
      = ((∑ k : Fin 512, x0 (ix2 r k) * x0 (ix2 r k)) + x2 (ix2 (0 : Fin 1) c))
        - Ideal.ofBits .f32 0x40000000#32 * ∑ k : Fin 512, x0 (ix2 r k) * x1 (ix2 c k) := by
  unfold k0_pay1
  refine (subf_apply _ _ _).trans ?_
  refine congrArg₂ (· - ·) ?_ ?_
  · -- the column of row sums plus the row vector, spread over the tile
    refine (addf_apply _ _ _).trans ?_
    refine congrArg₂ (· + ·) ?_ ?_
    · refine (broadcastTo_a1_ab_apply _ broadcasts_S2048x1_S2048x1000 r c).trans ?_
      refine (shapeCast_a_a1_apply _ shapeCasts_S2048_S2048x1 r (0 : Fin 1)).trans ?_
      exact rowSum_apply (mulf x0 x0) rfl r
    · refine (broadcastTo_1b_ab_apply _ broadcasts_S1x1000_S2048x1000 r c).trans ?_
      rw [shapeCast_self]
  · -- two times the product
    refine (mulf_apply _ _ _).trans ?_
    refine congrArg₂ (· * ·) rfl ?_
    exact product_apply (truncf .bf16 x0 bitsLt_bf16_f32) (truncf .bf16 x1 bitsLt_bf16_f32) r c

end Cert.KernelIdeal.Payload

end
-- ==== Proof.HostNorms.lean ====
/-
  THE ROW VECTOR OF SQUARED NORMS THE KERNEL IS LAUNCHED WITH. Before the launch the program squares `p`, sums each
  of its 1000 rows from the initial value zero, keeps the sums as a column `[1000, 1]` and transposes it to the row
  `[1, 1000]` that the kernel's third window stages whole. Entry `(0, c)` of that row is the sum of the squares of
  row `c` of `p`.
-/
import proofs.«103916_j19748259627382_2_alg».proof.Proof.Gen.KernelIdeal.Frame
import Idealize.ShloMosaic.Lib.StableHlo.Run
import Idealize.ShloMosaic.Lib.ValueLayout
import Idealize.ShloMosaic.PureOps.Ideal.Laws

noncomputable section

open scoped BigOperators

namespace Cert.KernelIdeal.HostNorms

open Cert.KernelIdeal Cert.KernelIdeal.Gen Idealize.ShloMosaic Idealize.ShloMosaic.TcCoe Idealize.SL.Sem
open Idealize.ShloMosaic.StableHlo Idealize.ShloMosaic.ValueIdx

/-- The host operations before the launch, as one function of `p`: square, sum the rows, column, transpose. -/
def normRow (p : FVec Ideal S1000x512 .f32) : FVec Ideal S1x1000 .f32 :=
  transpose S1x1000 [1, 0]
    (broadcastInDim S1000x1 ![0] bcast_S1000_S1000x1_0
      (Host.reduceAdd (F := Ideal) (mulf p p) (constant (F := Ideal) S_ .f32 0x00000000#32) reducesTo_S1000x512_S1000_d1 h_S_))
    transposes_S1000x1_S1x1000_1_0

/-- Entry `(0, c)` of the row is the sum of the squares of row `c` of `p`: the transpose reads the column at `(c, 0)`,
    the column reads the vector of sums at `c`, and the sum from zero is the plain sum. -/
theorem normRow_apply (p : FVec Ideal S1000x512 .f32) (c : Fin 1000) :
    normRow p (ix2 (0 : Fin 1) c) = ∑ k : Fin 512, p (ix2 c k) * p (ix2 c k) := by
  unfold normRow
  refine (transpose_ix2_apply _ transposes_S1000x1_S1x1000_1_0 (0 : Fin 1) c).trans ?_
  refine (broadcastInDim_apply _ bcast_S1000_S1000x1_0 _ (ix2 c (0 : Fin 1)) (ix1 c) (fun a => match a with
    | ⟨0, _⟩ => by show c.val = if (1000 : Nat) = 1 then 0 else c.val; rw [if_neg (by decide)])).trans ?_
  simp only [Host.reduceAdd, Ideal.hostReduceAdd_def]
  rw [Ideal.hostReduceAdd_single reducesTo_S1000x512_S1000_d1 (by decide)]
  refine (congrArg (· + _) (Ideal.ofBits_zero_f32)).trans ?_
  rw [zero_add]
  refine Finset.sum_congr rfl fun k _ => ?_
  refine (mulf_apply p p _).trans ?_
  have e : (show Shape.Reduces S1000x512 [1] S1000 by decide).lift (ix1 c) k = ix2 c k :=
    funext fun a => Fin.ext (by match a with | ⟨0, _⟩ => rfl | ⟨1, _⟩ => rfl)
  rw [e]
  rfl

variable (m : (ℓ : Loc nD τ sig) → Buf (Elt Ideal) ℓ)

/-- What the region finds in the buffer its third window stages: the row of squared norms of the second argument as
    launched. -/
theorem V_main_v3 (c : Dev nD) :
    (V m c main_v3 : S1x1000.Idx → EReal) = normRow (m ((c : Thread nD τ).loc main_arg1)) := by
  unfold normRow
  dsimp only [Gen.V, Gen.hostOps0]
  after_results

end Cert.KernelIdeal.HostNorms

end
-- ==== Proof.KernelValue.lean ====
/-
  THE KERNEL'S RESULT ARRAY IS THE DISTANCE MATRIX. The grid has 8 points; point `t` stages rows
  `2048 t … 2048 t + 2047` of `x`, the whole of `p` and the whole row of `p`'s squared norms, and writes back rows
  `2048 t … 2048 t + 2047` of the result, all 1000 columns. So entry `(r, c)` of the tile written at point `t` is
  entry `(2048 t + r, c)` of the distance matrix: the tile's row `r` of `x` is row `2048 t + r` of the array, row `c`
  of `p` is itself, and the staged row vector at `c` is the squared norm of row `c` of `p`. The eight tiles cover the
  result (row `i` lies in tile `i / 2048`), hence the array ends holding the distance matrix of the two arguments.
-/
import proofs.«103916_j19748259627382_2_alg».proof.Proof.Gen.KernelIdeal.Value
import proofs.«103916_j19748259627382_2_alg».proof.Proof.DistSpec
import proofs.«103916_j19748259627382_2_alg».proof.Proof.KernelPayload
import proofs.«103916_j19748259627382_2_alg».proof.Proof.HostNorms

noncomputable section

open scoped BigOperators

namespace Cert.KernelIdeal.DistValue

open Cert.KernelIdeal Cert.KernelIdeal.Gen Idealize.ShloMosaic Idealize.ShloMosaic.TcCoe Idealize.SL.Sem
open Idealize.ShloMosaic.ValueIdx Cert.SqDist
open Idealize.ShloMosaic.Pipeline (Dat)

/-! ## One tile entry, over any blocks that read the arrays where the tile says -/

/-- If row `r` of the staged tile of `x` is row `b` of the array `X`, row `c` of the staged `p` is row `c` of `P`, and
    the staged row vector at `c` is the squared norm of row `c` of `P`, then the body's stored value at `(r, c)` is
    entry `(b, c)` of the distance matrix of `X` and `P`. -/
theorem tile_entry (X : FVec Ideal S16384x512 .f32) (P : FVec Ideal S1000x512 .f32)
    (x0 : Vec Ideal S2048x512 .f32) (x1 : Vec Ideal S1000x512 .f32) (x2 : Vec Ideal S1x1000 .f32)
    (b : Fin 16384) (r : Fin 2048) (c : Fin 1000)
    (h0 : ∀ k : Fin 512, x0 (ix2 r k) = X (ix2 b k)) (h1 : ∀ k : Fin 512, x1 (ix2 c k) = P (ix2 c k))
    (h2 : x2 (ix2 (0 : Fin 1) c) = rowSq P c) :
    k0_pay1 (F := Ideal) x0 x1 x2 (ix2 r c) = entry X P b c := by
  refine (Payload.pay_apply x0 x1 x2 r c).trans ?_
  unfold entry rowSq rowDot
  rw [h2]
  unfold rowSq
  simp only [h0, h1]

/-! ## The schedule: which rows each point stages and writes -/

theorem zero_offsets : (![0, 0] : Fin 2 → Nat) = fun _ => 0 := funext fun a => by fin_cases a <;> rfl

/-- The printed index maps, decided over the 8 grid points: the blocks of `x` and of the result are block-row `t`,
    the blocks of `p` and of the row vector are the whole arrays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `r` of the tile at point `t` is row `2048 t + r` of the array. -/
def row (t : Fin cfg0.N) (r : Fin 2048) : Fin 16384 :=
  ⟨t.val * 2048 + r.val, by have ht := t.isLt; have hN : cfg0.N = 8 := N_0; have hr := r.isLt; omega⟩

variable (m : (ℓ : Loc nD τ sig) → Buf (Elt Ideal) ℓ) (ρ : Dev nD → PrngReg)

/-- The staged tile of `x` at point `t` reads the first argument at rows `2048 t + r`. -/
theorem blk0_apply (c : Dev nD) (t : Fin cfg0.N) (r : Fin 2048) (k : Fin 512) :
    iblk m c 0 t (ix2 r k) = m ((c : Thread nD τ).loc main_arg0) (ix2 (row t r) k) := by
  show V m c main_arg0 (((cfg0.win 0).blk t).view.emb (ix2 r k)) = _
  rw [V_main_arg0]
  refine congrArg (m ((c : Thread nD τ).loc main_arg0)) ?_
  obtain ⟨e0, e1, -⟩ := idx_facts t
  funext a; apply Fin.ext
  match a with
  | ⟨0, _⟩ => show win0_0.index t (0 : Fin 2) * 2048 + 1 * r.val = t.val * 2048 + r.val; rw [e0]; omega
  | ⟨1, _⟩ => show win0_0.index t (1 : Fin 2) * 512 + 1 * k.val = k.val; rw [e1]; omega

/-- The staged `p` at any point is the second argument. -/
theorem blk1_apply (c : Dev nD) (t : Fin cfg0.N) (j : Fin 1000) (k : Fin 512) :
    iblk m c 1 t (ix2 j k) = m ((c : Thread nD τ).loc main_arg1) (ix2 j k) := by
  show V m c main_arg1 (((cfg0.win 1).blk t).view.emb (ix2 j k)) = _
  rw [V_main_arg1]
  refine congrArg (m ((c : Thread nD τ).loc main_arg1)) ?_
  obtain ⟨-, -, e2, e3, -⟩ := idx_facts t
  funext a; apply Fin.ext
  match a with
  | ⟨0, _⟩ => show win0_1.index t (0 : Fin 2) * 1000 + 1 * j.val = j.val; rw [e2]; omega
  | ⟨1, _⟩ => show win0_1.index t (1 : Fin 2) * 512 + 1 * k.val = k.val; rw [e3]; omega

/-- The staged row vector at any point, at `c`, is the squared norm of row `c` of the second argument. -/
theorem blk2_apply (c : Dev nD) (t : Fin cfg0.N) (j : Fin 1000) :
    iblk m c 2 t (ix2 (0 : Fin 1) j) = rowSq (m ((c : Thread nD τ).loc main_arg1)) j := by
  show V m c main_v3 (((cfg0.win 2).blk t).view.emb (ix2 (0 : Fin 1) j)) = _
  have e : ((cfg0.win 2).blk t).view.emb (ix2 (0 : Fin 1) j) = ix2 (0 : Fin 1) j := by
    obtain ⟨-, -, -, -, e4, e5, -⟩ := idx_facts t
    funext a; apply Fin.ext
    match a with
    | ⟨0, _⟩ => show win0_2.index t (0 : Fin 2) * 1 + 1 * 0 = 0; rw [e4]
    | ⟨1, _⟩ => show win0_2.index t (1 : Fin 2) * 1000 + 1 * j.val = j.val; rw [e5]; omega
  rw [e, HostNorms.V_main_v3 m c]
  exact HostNorms.normRow_apply _ j

/-- Entry `(r, j)` of the result's block at point `t` sits in the array at `(2048 t + r, j)`. -/
theorem emb_out (t : Fin cfg0.N) (r : Fin 2048) (j : Fin 1000) :
    ((cfg0.win 3).blk t).view.emb (ix2 r j) = ix2 (row t r) j := by
  obtain ⟨-, -, -, -, -, -, e6, e7⟩ := idx_facts t
  funext a; apply Fin.ext
  match a with
  | ⟨0, _⟩ => show win0_3.index t (0 : Fin 2) * 2048 + 1 * r.val = t.val * 2048 + r.val; rw [e6]; omega
  | ⟨1, _⟩ => show win0_3.index t (1 : Fin 2) * 1000 + 1 * j.val = j.val; rw [e7]; omega

/-! ## What each point writes back, the cover, and the array after the run -/

/-- WHAT POINT `t` WRITES BACK is block `t` of the distance matrix of the two arguments as launched. -/
theorem flushed_eq (c : Dev nD) (t : Fin cfg0.N) :
    (dats m 0 c).flushed 3 t = ((cfg0.win 3).blk t).view.read (Elt Ideal)
      (sqDist (m ((c : Thread nD τ).loc main_arg0)) (m ((c : Thread nD τ).loc main_arg1))) := by
  rw [Value.flushed3]
  unfold out0_3
  rw [View.canon_unit_zero zero_offsets]
  simp only [View.ld_unit_zero (S := S2048x512) zero_offsets, View.ld_unit_zero (S := S1000x512) zero_offsets,
    View.ld_unit_zero (S := S1x1000) zero_offsets]
  funext y
  obtain ⟨r, j, rfl⟩ : ∃ (r : Fin 2048) (j : Fin 1000), y = ix2 r j := ⟨y 0, y 1, eq_ix2 y⟩
  show k0_pay1 (F := Ideal) (iblk m c 0 t) (iblk m c 1 t) (iblk m c 2 t) (ix2 r j)
    = sqDist (m ((c : Thread nD τ).loc main_arg0)) (m ((c : Thread nD τ).loc main_arg1)) (((cfg0.win 3).blk t).view.emb (ix2 r j))
  rw [emb_out t r j, sqDist_ix2]
  exact tile_entry (m ((c : Thread nD τ).loc main_arg0)) (m ((c : Thread nD τ).loc main_arg1))
    (iblk m c 0 t) (iblk m c 1 t) (iblk m c 2 t) (row t r) r j
    (fun k => blk0_apply m c t r k) (fun k => blk1_apply m c t j k) (blk2_apply m c t j)

/-- An index of the result array is in point `t`'s block iff each coordinate is in the block's range on its axis. -/
theorem mem_blk (t : Fin cfg0.N) (i : S16384x1000.Idx) :
    i ∈ ((cfg0.win 3).blk t).view.set ↔ ∀ a : Fin 2, win0_3.index t a * S2048x1000.size a ≤ (i a).val
      ∧ (i a).val < win0_3.index t a * S2048x1000.size a + S2048x1000.size a := by
  show i ∈ ((View.whole main_v4).slice (win0_3.rect t)).set ↔ _
  rw [View.set_slice_whole, Rect.mem_set_unit]
  exact Iff.rfl

/-- THE COVER: row `i` of the result lies in the block of point `i / 2048`, and every point writes its block back. -/
theorem cover (i : S16384x1000.Idx) :
    ∃ t : Fin cfg0.N, (cfg0.win 3).flush t = true ∧ i ∈ ((cfg0.win 3).blk t).view.set := by
  have hi0 : (i 0).val < 16384 := (i 0).isLt
  have hi1 : (i 1).val < 1000 := (i 1).isLt
  have hN : cfg0.N = 8 := N_0
  obtain ⟨t, ht⟩ : ∃ t : Fin cfg0.N, t.val = (i 0).val / 2048 := ⟨⟨(i 0).val / 2048, by omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + 2048
    rw [e6, ht]; omega
  | ⟨1, _⟩ =>
    show win0_3.index t (1 : Fin 2) * 1000 ≤ (i 1).val ∧ (i 1).val < win0_3.index t (1 : Fin 2) * 1000 + 1000
    rw [e7]; omega

/-- THE ARRAY after the run is the distance matrix of the two arguments as launched. -/
theorem final (c : Dev nD) :
    (dats m 0 c).arrAt 3 cfg0.N = sqDist (m ((c : Thread nD τ).loc main_arg0)) (m ((c : Thread nD τ).loc main_arg1)) :=
  (dats m 0 c).arrAt_eq_of_cover 3 _ (fun t _ => flushed_eq m c t) cover

/-- The kernel's run re-posted: the result array at the distance matrix of the arguments, the arguments unchanged. -/
theorem run : θ_run defs (onTc (τ := τ) (main (F := Ideal))) ⟨m, fun _ => 0, ρ⟩ fun r => ∀ c : Dev nD,
      r.2.mem ((c : Thread nD τ).loc main_v4) = sqDist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.DistValue

end
-- ==== Proof.lean ====
/- The proof of `Cert.Claim`: a Pallas kernel that computes the matrix of squared Euclidean distances between the
   16384 rows of `x` and the 1000 rows of `p` (512 columns each), against its plain reference.

   THE MATHEMATICS. Both programs use the expansion
       dist b c = (∑ k, x b k * x b k  +  ∑ k, p c k * p c k)  -  two * ∑ k, x b k * p c k
   with the same grouping and the same f32 word for `two`. They differ only in where and in which shapes the three
   sums are taken: the reference takes them over the whole arrays on the host; the kernel takes the squared norms of
   `p` on the host beforehand (as a row vector), and, tile of 2048 rows by tile, the squared norms of `x` by a
   lane sum and the cross term by a matrix product of the two factors narrowed to bf16 — which over the extended
   reals is no change at all. No law of arithmetic beyond reading each sum at an index is needed, so the
   finiteness of the inputs is never used.

   THE PARTS. Proof/DistSpec.lean states the distance matrix as one function of the two arrays. Proof/RefIsDist.lean
   reads the reference's operations at an index and finds that function. Proof/KernelPayload.lean reads the kernel
   body's stored tile at an index; Proof/HostNorms.lean reads the row vector of squared norms prepared before the
   launch; Proof/KernelValue.lean identifies each tile with its block of the distance matrix and shows the eight tiles
   cover the result. Proof/LibColumnLayout.lean holds two small layout lemmas (a vector kept as a column, and a
   column spread over a matrix). Here the five claims are assembled: the two kernels' frames and the reference's are
   the generated runs; `preserves` is trivial (the idealization rewrote no operation); `algebraic` puts the
   kernel's run and the reference's run side by side at the same function of arguments that agree. -/
import proofs.«103916_j19748259627382_2_alg».proof.Defs
import proofs.«103916_j19748259627382_2_alg».proof.Proof.Gen.Kernel
import proofs.«103916_j19748259627382_2_alg».proof.Proof.Gen.Kernel.Skeleton
import proofs.«103916_j19748259627382_2_alg».proof.Proof.Gen.Kernel.Launch
import proofs.«103916_j19748259627382_2_alg».proof.Proof.Gen.Kernel.Points
import proofs.«103916_j19748259627382_2_alg».proof.Proof.Gen.Kernel.Frame
import proofs.«103916_j19748259627382_2_alg».proof.Proof.Gen.KernelIdeal
import proofs.«103916_j19748259627382_2_alg».proof.Proof.Gen.KernelIdeal.Skeleton
import proofs.«103916_j19748259627382_2_alg».proof.Proof.Gen.KernelIdeal.Launch
import proofs.«103916_j19748259627382_2_alg».proof.Proof.Gen.KernelIdeal.Points
import proofs.«103916_j19748259627382_2_alg».proof.Proof.Gen.KernelIdeal.Frame
import proofs.«103916_j19748259627382_2_alg».proof.Proof.Gen.ReferenceIdeal
import proofs.«103916_j19748259627382_2_alg».proof.Proof.Gen.Pre_finite_inputs
import proofs.«103916_j19748259627382_2_alg».proof.Proof.Gen.KernelIdeal.Value
import proofs.«103916_j19748259627382_2_alg».proof.Proof.Gen.ReferenceIdeal.Run
import proofs.«103916_j19748259627382_2_alg».proof.Proof.Gen.ReferenceIdeal.Read
import proofs.«103916_j19748259627382_2_alg».proof.Proof.RefIsDist
import proofs.«103916_j19748259627382_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its generated run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation, so there is nothing to preserve. -/
theorem preserves : Cert.preserves_Kernel_KernelIdeal := trivial

/-- Over the extended reals the kernel's result array ends at the distance matrix of its arguments, and the
    reference's result at the same function of its own arguments; the arguments agree, so the results are equal. -/
theorem algebraic : Cert.algebraic_KernelIdeal_ReferenceIdeal := by
  intro m ρ m' ρ' _ hagree
  refine ⟨fun c => Cert.SqDist.sqDist (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.DistValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
